-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x16 : Shape := ⟨2, ![50000, 16]⟩
abbrev S400000 : Shape := ⟨1, ![400000]⟩
abbrev S273x64 : Shape := ⟨2, ![273, 64]⟩
abbrev S_ : Shape := ⟨0, ![]⟩

class Facts : Prop where
  bcast_S_S50000x16 : S_.BroadcastsInDim S50000x16 (![] : Fin 0 → Fin S50000x16.rank)
  reducesTo_S50000x16_S_d0_1 : S50000x16.ReducesTo [0, 1] S_
  h_S_ : 0 < S_.numel
  bcast_S_S273x64 : S_.BroadcastsInDim S273x64 (![] : Fin 0 → Fin S273x64.rank)
  reducesTo_S273x64_S_d0_1 : S273x64.ReducesTo [0, 1] S_

variable [Facts]

def fn {F : FTy → Type} [FloatOps F] (main_arg0 : FVec F S50000x16 .f32) (main_arg1 : IVec S400000 32) (main_arg2 : IVec S400000 32) (main_arg3 : FVec F S273x64 .f32) : IVec S_ 1 :=
  let main_v0 : FVec F S50000x16 .f32 := Host.absf main_arg0
  let main_cst : FVec F S_ .f32 := constant S_ .f32 0x7F800000#32
  let main_v1 : FVec F S50000x16 .f32 := broadcastInDim S50000x16 ![] bcast_S_S50000x16 main_cst
  let main_v2 : IVec S50000x16 1 := cmpf .olt main_v0 main_v1
  let main_c : IVec S_ 1 := constantI S_ 1 1#1
  let main_v3 : IVec S_ 1 := (fun x v => Host.reduce IntOp.andi x v reducesTo_S50000x16_S_d0_1 h_S_) main_v2 main_c
  let main_v4 : FVec F S273x64 .f32 := Host.absf main_arg3
  let main_cst_0 : FVec F S_ .f32 := constant S_ .f32 0x7F800000#32
  let main_v5 : FVec F S273x64 .f32 := broadcastInDim S273x64 ![] bcast_S_S273x64 main_cst_0
  let main_v6 : IVec S273x64 1 := cmpf .olt main_v4 main_v5
  let main_c_1 : IVec S_ 1 := constantI S_ 1 1#1
  let main_v7 : IVec S_ 1 := (fun x v => Host.reduce IntOp.andi x v reducesTo_S273x64_S_d0_1 h_S_) main_v6 main_c_1
  let main_v8 : IVec S_ 1 := andi main_v3 main_v7
  main_v8
-- ==== Kernel.lean ====
abbrev S50000x16 : Shape := ⟨2, ![50000, 16]⟩
abbrev S400000 : Shape := ⟨1, ![400000]⟩
abbrev S273x64 : Shape := ⟨2, ![273, 64]⟩
abbrev S50000x273 : Shape := ⟨2, ![50000, 273]⟩
abbrev S2000x16 : Shape := ⟨2, ![2000, 16]⟩
abbrev S2000x273 : Shape := ⟨2, ![2000, 273]⟩
abbrev S2000x1 : Shape := ⟨2, ![2000, 1]⟩
abbrev S_ : Shape := ⟨0, ![]⟩
abbrev S400000x1 : Shape := ⟨2, ![400000, 1]⟩
abbrev S400000x273 : Shape := ⟨2, ![400000, 273]⟩
abbrev S50000x64 : Shape := ⟨2, ![50000, 64]⟩
abbrev S2000x64 : Shape := ⟨2, ![2000, 64]⟩

abbrev nBuf : Space → Nat
  | .hbm => 19
  | .vmem => 11
  | .smem => 0
  | _ => 0

abbrev bufTy : (tb : Table) → Fin (tcTables nBuf tb) → BufTy
  | .hbm, ⟨0, _⟩ => ⟨S50000x16, .f32⟩
  | .hbm, ⟨1, _⟩ => ⟨S400000, .i32⟩
  | .hbm, ⟨2, _⟩ => ⟨S400000, .i32⟩
  | .hbm, ⟨3, _⟩ => ⟨S273x64, .f32⟩
  | .hbm, ⟨4, _⟩ => ⟨S50000x273, .f32⟩
  | .hbm, ⟨5, _⟩ => ⟨S_, .i32⟩
  | .hbm, ⟨6, _⟩ => ⟨S400000, .i32⟩
  | .hbm, ⟨7, _⟩ => ⟨S400000, .i1⟩
  | .hbm, ⟨8, _⟩ => ⟨S_, .i32⟩
  | .hbm, ⟨9, _⟩ => ⟨S400000, .i32⟩
  | .hbm, ⟨10, _⟩ => ⟨S400000, .i32⟩
  | .hbm, ⟨11, _⟩ => ⟨S400000, .i32⟩
  | .hbm, ⟨12, _⟩ => ⟨S400000x1, .i32⟩
  | .hbm, ⟨13, _⟩ => ⟨S400000x273, .f32⟩
  | .hbm, ⟨14, _⟩ => ⟨S_, .f32⟩
  | .hbm, ⟨15, _⟩ => ⟨S50000x273, .f32⟩
  | .hbm, ⟨16, _⟩ => ⟨S400000x1, .i32⟩
  | .hbm, ⟨17, _⟩ => ⟨S50000x273, .f32⟩
  | .hbm, ⟨18, _⟩ => ⟨S50000x64, .f32⟩
  | .local _ .vmem, ⟨0, _⟩ => ⟨S2000x16, .f32⟩
  | .local _ .vmem, ⟨1, _⟩ => ⟨S2000x16, .f32⟩
  | .local _ .vmem, ⟨2, _⟩ => ⟨S2000x273, .f32⟩
  | .local _ .vmem, ⟨3, _⟩ => ⟨S2000x273, .f32⟩
  | .local _ .vmem, ⟨4, _⟩ => ⟨S2000x273, .f32⟩
  | .local _ .vmem, ⟨5, _⟩ => ⟨S2000x273, .f32⟩
  | .local _ .vmem, ⟨6, _⟩ => ⟨S2000x273, .f32⟩
  | .local _ .vmem, ⟨7, _⟩ => ⟨S2000x273, .f32⟩
  | .local _ .vmem, ⟨8, _⟩ => ⟨S273x64, .f32⟩
  | .local _ .vmem, ⟨9, _⟩ => ⟨S2000x64, .f32⟩
  | .local _ .vmem, ⟨10, _⟩ => ⟨S2000x64, .f32⟩
  | _, _ => ⟨S50000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x273 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x273 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x273 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S273x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S2000x16_S2000x16_0_0 : ∀ a, (![0, 0] : Fin 2 → Nat) a + S2000x16.size a ≤ S2000x16.size a
  h_S2000x16 : 0 < S2000x16.numel
  slices_S2000x16_o0_0_S2000x1 : S2000x16.Slices ![0, 0] S2000x1
  broadcasts_S2000x1_S2000x16 : S2000x1.Broadcasts S2000x16
  slices_S2000x16_o0_1_S2000x1 : S2000x16.Slices ![0, 1] S2000x1
  slices_S2000x16_o0_2_S2000x1 : S2000x16.Slices ![0, 2] S2000x1
  slices_S2000x16_o0_3_S2000x1 : S2000x16.Slices ![0, 3] S2000x1
  slices_S2000x16_o0_4_S2000x1 : S2000x16.Slices ![0, 4] S2000x1
  slices_S2000x16_o0_5_S2000x1 : S2000x16.Slices ![0, 5] S2000x1
  slices_S2000x16_o0_6_S2000x1 : S2000x16.Slices ![0, 6] S2000x1
  slices_S2000x16_o0_7_S2000x1 : S2000x16.Slices ![0, 7] S2000x1
  slices_S2000x16_o0_8_S2000x1 : S2000x16.Slices ![0, 8] S2000x1
  slices_S2000x16_o0_9_S2000x1 : S2000x16.Slices ![0, 9] S2000x1
  slices_S2000x16_o0_10_S2000x1 : S2000x16.Slices ![0, 10] S2000x1
  slices_S2000x16_o0_11_S2000x1 : S2000x16.Slices ![0, 11] S2000x1
  slices_S2000x16_o0_12_S2000x1 : S2000x16.Slices ![0, 12] S2000x1
  slices_S2000x16_o0_13_S2000x1 : S2000x16.Slices ![0, 13] S2000x1
  slices_S2000x16_o0_14_S2000x1 : S2000x16.Slices ![0, 14] S2000x1
  slices_S2000x16_o0_15_S2000x1 : S2000x16.Slices ![0, 15] S2000x1
  concatenates_S2000x1_S2000x16_S2000x16_S2000x16_S2000x16_S2000x16_S2000x16_S2000x16_S2000x16_S2000x16_S2000x16_S2000x16_S2000x16_S2000x16_S2000x16_S2000x16_S2000x16_S2000x16_S2000x273_d1 : Shape.Concatenates [S2000x1, S2000x16, S2000x16, S2000x16, S2000x16, S2000x16, S2000x16, S2000x16, S2000x16, S2000x16, S2000x16, S2000x16, S2000x16, S2000x16, S2000x16, S2000x16, S2000x16, S2000x16] S2000x273 1
  inb_S2000x273_S2000x273_0_0 : ∀ a, (![0, 0] : Fin 2 → Nat) a + S2000x273.size a ≤ S2000x273.size a
  h_S2000x273 : 0 < S2000x273.numel
  bcast_S_S400000 : S_.BroadcastsInDim S400000 (![] : Fin 0 → Fin S400000.rank)
  bcast_S400000_S400000x1_0 : S400000.BroadcastsInDim S400000x1 (![0] : Fin 1 → Fin S400000x1.rank)
  bcast_S_S50000x273 : S_.BroadcastsInDim S50000x273 (![] : Fin 0 → Fin S50000x273.rank)
  shapeCasts_S2000x273_S2000x273 : S2000x273.ShapeCasts S2000x273
  bitsLt_bf16_f32 : FTy.bits .bf16 < FTy.bits .f32
  inb_S273x64_S273x64_0_0 : ∀ a, (![0, 0] : Fin 2 → Nat) a + S273x64.size a ≤ S273x64.size a
  h_S273x64 : 0 < S273x64.numel
  inb_S2000x64_S2000x64_0_0 : ∀ a, (![0, 0] : Fin 2 → Nat) a + S2000x64.size a ≤ S2000x64.size a
  h_S2000x64 : 0 < S2000x64.numel
  gather_S50000x273_S400000x1_S400000x273_1_0_n_n_0_1_1273_wf : GatherDims.WF S50000x273 S400000x1 S400000x273 [1] [0] [] [0] [] 1 ![1, 273]
  scatter_S50000x273_S400000x1_S400000x273_1_0_0_1_wf : ScatterDims.WF S50000x273 S400000x1 S400000x273 [1] [0] [0] 1
  dot_S2000x273_S273x64_S2000x64_1_0_0_1_n_n_wf : DotDims.WF S2000x273 S273x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x16.size a ≤ S50000x16.size a
  hwx0_0 : ∀ i : grid0.Coords, EltTy.bits .f32 = 32 ∨ (Rect.block (s := S50000x16) S2000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x273.size a ≤ S50000x273.size a
  hwx0_1 : ∀ i : grid0.Coords, EltTy.bits .f32 = 32 ∨ (Rect.block (s := S50000x273) S2000x273.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x273.size a ≤ S50000x273.size a
  hwx1_0 : ∀ i : grid1.Coords, EltTy.bits .f32 = 32 ∨ (Rect.block (s := S50000x273) S2000x273.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x273.size a ≤ S50000x273.size a
  hwx1_1 : ∀ i : grid1.Coords, EltTy.bits .f32 = 32 ∨ (Rect.block (s := S50000x273) S2000x273.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S273x64.size a ≤ S273x64.size a
  hwx1_2 : ∀ i : grid1.Coords, EltTy.bits .f32 = 32 ∨ (Rect.block (s := S273x64) S273x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S50000x64.size a
  hwx1_3 : ∀ i : grid1.Coords, EltTy.bits .f32 = 32 ∨ (Rect.block (s := S50000x64) S2000x64.size (cc1_transform_3 i) (hinb1_3 i)).WholeWords (EltTy.packing .f32)

variable [Facts₀]

def gather_S50000x273_S400000x1_S400000x273_1_0_n_n_0_1_1273 : GatherDims S50000x273 S400000x1 S400000x273 where
  offsetDims := [1]
  collapsedSliceDims := [0]
  operandBatchingDims := []
  startIndicesBatchingDims := []
  startIndexMap := [0]
  indexVectorDim := 1
  sliceSizes := ![1, 273]
  wf := gather_S50000x273_S400000x1_S400000x273_1_0_n_n_0_1_1273_wf
def scatter_S50000x273_S400000x1_S400000x273_1_0_0_1 : ScatterDims S50000x273 S400000x1 S400000x273 where
  updateWindowDims := [1]
  insertedWindowDims := [0]
  scatterDimsToOperandDims := [0]
  indexVectorDim := 1
  wf := scatter_S50000x273_S400000x1_S400000x273_1_0_0_1_wf
def dot_S2000x273_S273x64_S2000x64_1_0_0_1_n_n : DotDims S2000x273 S273x64 S2000x64 where
  lhsContracting := [1]
  rhsContracting := [0]
  lhsNonContracting := [0]
  rhsNonContracting := [1]
  lhsBatch := []
  rhsBatch := []
  wf := dot_S2000x273_S273x64_S2000x64_1_0_0_1_n_n_wf

abbrev win0_0 : Pipeline.Window sig grid0 :=
  Pipeline.Window.ofSpec (Memref.whole main_arg0) S2000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2000x273.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v10) S2000x273.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2000x273.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S273x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x16 : Shape := ⟨2, ![50000, 16]⟩
abbrev S400000 : Shape := ⟨1, ![400000]⟩
abbrev S273x64 : Shape := ⟨2, ![273, 64]⟩
abbrev S_ : Shape := ⟨0, ![]⟩
abbrev S50000x1 : Shape := ⟨2, ![50000, 1]⟩
abbrev S50000x16x1 : Shape := ⟨3, ![50000, 16, 1]⟩
abbrev S50000x1x16 : Shape := ⟨3, ![50000, 1, 16]⟩
abbrev S50000x16x16 : Shape := ⟨3, ![50000, 16, 16]⟩
abbrev S50000x256 : Shape := ⟨2, ![50000, 256]⟩
abbrev S50000x273 : Shape := ⟨2, ![50000, 273]⟩
abbrev S400000x1 : Shape := ⟨2, ![400000, 1]⟩
abbrev S400000x273 : Shape := ⟨2, ![400000, 273]⟩
abbrev S50000x64 : Shape := ⟨2, ![50000, 64]⟩

abbrev nBuf : Space → Nat
  | .hbm => 61
  | .vmem => 0
  | .smem => 0
  | _ => 0

abbrev bufTy : (tb : Table) → Fin (tcTables nBuf tb) → BufTy
  | .hbm, ⟨0, _⟩ => ⟨S50000x16, .f32⟩
  | .hbm, ⟨1, _⟩ => ⟨S400000, .i32⟩
  | .hbm, ⟨2, _⟩ => ⟨S400000, .i32⟩
  | .hbm, ⟨3, _⟩ => ⟨S273x64, .f32⟩
  | .hbm, ⟨4, _⟩ => ⟨S_, .f32⟩
  | .hbm, ⟨5, _⟩ => ⟨S50000x16, .f32⟩
  | .hbm, ⟨6, _⟩ => ⟨S50000x16, .f32⟩
  | .hbm, ⟨7, _⟩ => ⟨S_, .f32⟩
  | .hbm, ⟨8, _⟩ => ⟨S50000x1, .f32⟩
  | .hbm, ⟨9, _⟩ => ⟨S_, .f32⟩
  | .hbm, ⟨10, _⟩ => ⟨S50000x16, .f32⟩
  | .hbm, ⟨11, _⟩ => ⟨S50000x16, .f32⟩
  | .hbm, ⟨12, _⟩ => ⟨S50000x16x1, .f32⟩
  | .hbm, ⟨13, _⟩ => ⟨S50000x1x16, .f32⟩
  | .hbm, ⟨14, _⟩ => ⟨S50000x16x16, .f32⟩
  | .hbm, ⟨15, _⟩ => ⟨S50000x16x16, .f32⟩
  | .hbm, ⟨16, _⟩ => ⟨S50000x16x16, .f32⟩
  | .hbm, ⟨17, _⟩ => ⟨S50000x256, .f32⟩
  | .hbm, ⟨18, _⟩ => ⟨S50000x273, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S50000x273, .f32⟩
  | .hbm, ⟨23, _⟩ => ⟨S50000x273, .f32⟩
  | .hbm, ⟨24, _⟩ => ⟨S_, .f32⟩
  | .hbm, ⟨25, _⟩ => ⟨S50000x273, .f32⟩
  | .hbm, ⟨26, _⟩ => ⟨S50000x273, .f32⟩
  | .hbm, ⟨27, _⟩ => ⟨S_, .i32⟩
  | .hbm, ⟨28, _⟩ => ⟨S400000, .i32⟩
  | .hbm, ⟨29, _⟩ => ⟨S400000, .i1⟩
  | .hbm, ⟨30, _⟩ => ⟨S_, .i32⟩
  | .hbm, ⟨31, _⟩ => ⟨S400000, .i32⟩
  | .hbm, ⟨32, _⟩ => ⟨S400000, .i32⟩
  | .hbm, ⟨33, _⟩ => ⟨S400000, .i32⟩
  | .hbm, ⟨34, _⟩ => ⟨S400000x1, .i32⟩
  | .hbm, ⟨35, _⟩ => ⟨S400000x273, .f32⟩
  | .hbm, ⟨36, _⟩ => ⟨S_, .f32⟩
  | .hbm, ⟨37, _⟩ => ⟨S50000x273, .f32⟩
  | .hbm, ⟨38, _⟩ => ⟨S400000x1, .i32⟩
  | .hbm, ⟨39, _⟩ => ⟨S50000x273, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S50000x273, .f32⟩
  | .hbm, ⟨44, _⟩ => ⟨S50000x273, .f32⟩
  | .hbm, ⟨45, _⟩ => ⟨S_, .f32⟩
  | .hbm, ⟨46, _⟩ => ⟨S50000x273, .f32⟩
  | .hbm, ⟨47, _⟩ => ⟨S50000x273, .f32⟩
  | .hbm, ⟨48, _⟩ => ⟨S50000x273, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S50000x273, .f32⟩
  | .hbm, ⟨53, _⟩ => ⟨S50000x273, .f32⟩
  | .hbm, ⟨54, _⟩ => ⟨S_, .f32⟩
  | .hbm, ⟨55, _⟩ => ⟨S50000x273, .f32⟩
  | .hbm, ⟨56, _⟩ => ⟨S50000x273, .f32⟩
  | .hbm, ⟨57, _⟩ => ⟨S50000x64, .f32⟩
  | .hbm, ⟨58, _⟩ => ⟨S_, .f32⟩
  | .hbm, ⟨59, _⟩ => ⟨S50000x64, .f32⟩
  | .hbm, ⟨60, _⟩ => ⟨S50000x64, .f32⟩
  | _, _ => ⟨S50000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_cst_3 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_6 : Ref sig .tc := ⟨.hbm, 40, rfl⟩
abbrev main_cst_7 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_v23 : Ref sig .tc := ⟨.hbm, 47, rfl⟩
abbrev main_v24 : Ref sig .tc := ⟨.hbm, 48, rfl⟩
abbrev main_cst_8 : Ref sig .tc := ⟨.hbm, 49, rfl⟩
abbrev main_cst_9 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_v25 : Ref sig .tc := ⟨.hbm, 56, rfl⟩
abbrev main_v26 : Ref sig .tc := ⟨.hbm, 57, rfl⟩
abbrev main_cst_10 : Ref sig .tc := ⟨.hbm, 58, rfl⟩
abbrev main_v27 : Ref sig .tc := ⟨.hbm, 59, rfl⟩
abbrev main_v28 : Ref sig .tc := ⟨.hbm, 60, rfl⟩

abbrev nD : Nat := 1
abbrev τ : Topo := Topo.v7x

variable {F : FTy → Type} [FloatOps F]

class Facts₀ : Prop where
  bcast_S_S50000x16 : S_.BroadcastsInDim S50000x16 (![] : Fin 0 → Fin S50000x16.rank)
  bcast_S_S50000x1 : S_.BroadcastsInDim S50000x1 (![] : Fin 0 → Fin S50000x1.rank)
  bcast_S50000x16_S50000x16x1_0_1 : S50000x16.BroadcastsInDim S50000x16x1 (![0, 1] : Fin 2 → Fin S50000x16x1.rank)
  bcast_S50000x16_S50000x1x16_0_2 : S50000x16.BroadcastsInDim S50000x1x16 (![0, 2] : Fin 2 → Fin S50000x1x16.rank)
  bcast_S50000x16x1_S50000x16x16_0_1_2 : S50000x16x1.BroadcastsInDim S50000x16x16 (![0, 1, 2] : Fin 3 → Fin S50000x16x16.rank)
  bcast_S50000x1x16_S50000x16x16_0_1_2 : S50000x1x16.BroadcastsInDim S50000x16x16 (![0, 1, 2] : Fin 3 → Fin S50000x16x16.rank)
  shapeCasts_S50000x16x16_S50000x256 : S50000x16x16.ShapeCasts S50000x256
  concatenates_S50000x1_S50000x16_S50000x256_S50000x273_d1 : Shape.Concatenates [S50000x1, S50000x16, S50000x256] S50000x273 1
  bcast_S_S50000x273 : S_.BroadcastsInDim S50000x273 (![] : Fin 0 → Fin S50000x273.rank)
  bcast_S_S400000 : S_.BroadcastsInDim S400000 (![] : Fin 0 → Fin S400000.rank)
  bcast_S400000_S400000x1_0 : S400000.BroadcastsInDim S400000x1 (![0] : Fin 1 → Fin S400000x1.rank)
  bcast_S_S50000x64 : S_.BroadcastsInDim S50000x64 (![] : Fin 0 → Fin S50000x64.rank)
  gather_S50000x273_S400000x1_S400000x273_1_0_n_n_0_1_1273_wf : GatherDims.WF S50000x273 S400000x1 S400000x273 [1] [0] [] [0] [] 1 ![1, 273]
  scatter_S50000x273_S400000x1_S400000x273_1_0_0_1_wf : ScatterDims.WF S50000x273 S400000x1 S400000x273 [1] [0] [0] 1
  dot_S50000x273_S273x64_S50000x64_1_0_0_1_n_n_wf : DotDims.WF S50000x273 S273x64 S50000x64 [1] [0] [0] [1] [] []

variable [Facts₀]

def gather_S50000x273_S400000x1_S400000x273_1_0_n_n_0_1_1273 : GatherDims S50000x273 S400000x1 S400000x273 where
  offsetDims := [1]
  collapsedSliceDims := [0]
  operandBatchingDims := []
  startIndicesBatchingDims := []
  startIndexMap := [0]
  indexVectorDim := 1
  sliceSizes := ![1, 273]
  wf := gather_S50000x273_S400000x1_S400000x273_1_0_n_n_0_1_1273_wf
def scatter_S50000x273_S400000x1_S400000x273_1_0_0_1 : ScatterDims S50000x273 S400000x1 S400000x273 where
  updateWindowDims := [1]
  insertedWindowDims := [0]
  scatterDimsToOperandDims := [0]
  indexVectorDim := 1
  wf := scatter_S50000x273_S400000x1_S400000x273_1_0_0_1_wf
def dot_S50000x273_S273x64_S50000x64_1_0_0_1_n_n : DotDims S50000x273 S273x64 S50000x64 where
  lhsContracting := [1]
  rhsContracting := [0]
  lhsNonContracting := [0]
  rhsNonContracting := [1]
  lhsBatch := []
  rhsBatch := []
  wf := dot_S50000x273_S273x64_S50000x64_1_0_0_1_n_n_wf

class Facts : Prop extends Facts₀ where

variable [Facts]
-- ==== Proof.KernelBoundary.lean ====
/-
  The program's run with its result buffer named.

  Every weakly fair execution of the program ends, without a fault, with each buffer that outlives the kernels at
  the contents the last segment boundary assigns it: the fold through the program's three segments (the first
  kernel's region, the host's operations, the second kernel's region) from the launch memory. Read at the result
  buffer this names the result; read at an argument it walks back to the launch contents.
-/
import proofs.«164930_j49065706389958_2_alg».proof.Proof.Gen.KernelIdeal.Frame

set_option maxRecDepth 16384

noncomputable section

namespace Cert.KernelIdeal.KernelBoundary

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents for it, the arguments as launched. -/
theorem run_boundary : θ_run defs (onTc (τ := τ) (main (F := F))) ⟨m, fun _ => 0, ρ⟩ (fun r => ∀ c : Dev nD,
      r.2.mem ((c.tc : Thread nD τ).loc main_v11) = W3 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v11 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Cert.KernelIdeal.KernelBoundary

end
-- ==== Proof.Spec.lean ====
/-
  The mathematics both programs compute, stated once over the extended reals.

  A node's 16 features x are scaled, z = x · 0.1, and lifted to the 273 coordinates of the degree-2 polynomial
  feature map: column 0 is the constant 1, columns 1..16 are √2 · z_j (the float nearest √2, the same word on both
  sides), columns 17 + 16·i + j are z_i · z_j; every coordinate is clipped to [-10⁶, 10⁶] (`hrow`, `expand`).
  The lifted rows are summed along the graph's edges by the host (`edgeSum`: a gather of the source rows and an
  accumulating scatter at the destination rows, carried as one opaque function of its arguments), and the result is
  clipped, added to the node's own lifted row, clipped again, multiplied by the 273 × 64 projection and divided
  by 4 (`project`).
-/
import Idealize.ShloMosaic.PureOps.Ideal
import Idealize.ShloMosaic.PureOps.Ideal.Laws
import Idealize.ShloMosaic.Lib.ValueIdx
import Idealize.ShloMosaic.Lib.Pipeline.Value

noncomputable section

namespace Cert.Spec

open Idealize.ShloMosaic Idealize.ShloMosaic.ValueIdx

abbrev SN16 : Shape := ⟨2, ![50000, 16]⟩
abbrev SN273 : Shape := ⟨2, ![50000, 273]⟩
abbrev SN64 : Shape := ⟨2, ![50000, 64]⟩
abbrev SP : Shape := ⟨2, ![273, 64]⟩
abbrev SE : Shape := ⟨1, ![400000]⟩
abbrev SE1 : Shape := ⟨2, ![400000, 1]⟩
abbrev SE273 : Shape := ⟨2, ![400000, 273]⟩
abbrev S0 : Shape := ⟨0, ![]⟩

/-- The float literals of the two programs, as the extended reals their words denote (never evaluated: the same
    word stands on both sides). -/
def tenth : EReal := Ideal.ofBits .f32 0x3DCCCCCD#32
def rootTwo : EReal := Ideal.ofBits .f32 0x3FB504F3#32
def unit : EReal := Ideal.ofBits .f32 0x3F800000#32
def lo : EReal := Ideal.ofBits .f32 0xC9742400#32
def hi : EReal := Ideal.ofBits .f32 0x49742400#32
def four : EReal := Ideal.ofBits .f32 0x40800000#32

/-- Clipping to the interval [lo, hi]: first from below, then from above. -/
def clip (v : EReal) : EReal := min hi (max lo v)

/-- One lifted row: coordinate `col` of the clipped feature map of the row `x`. -/
def hrow (x : Fin 16 → EReal) (col : Fin 273) : EReal :=
  clip (if h0 : col.val < 1 then unit
    else if h1 : col.val < 17 then (x ⟨col.val - 1, by omega⟩ * tenth) * rootTwo
    else (x ⟨(col.val - 17) / 16, by omega⟩ * tenth) * (x ⟨(col.val - 17) % 16, by omega⟩ * tenth))

/-- The lifted features of all nodes. -/
def expand (x : SN16.Idx → EReal) : SN273.Idx → EReal :=
  fun i => hrow (fun k => x (ix2 (i 0) k)) (i 1)

/-- The host's sum over edges, as the composition of its operations: source indices normalised (a negative index
    counts from the end), the source rows gathered, and accumulated into a zero array at the destination rows.
    The dimension records and the shape facts are parameters: each program states its own, and they are equal. -/
def edgeSum (gd : GatherDims SN273 SE1 SE273) (sd : ScatterDims SN273 SE1 SE273)
    (hb0 : S0.BroadcastsInDim SE (![] : Fin 0 → Fin SE.rank)) (hb1 : SE.BroadcastsInDim SE1 (![0] : Fin 1 → Fin SE1.rank))
    (hb2 : S0.BroadcastsInDim SN273 (![] : Fin 0 → Fin SN273.rank))
    (h : (⟨SN273, .f32⟩ : BufTy).Contents (Elt Ideal)) (src dst : (⟨SE, .i32⟩ : BufTy).Contents (Elt Ideal)) :
    (⟨SN273, .f32⟩ : BufTy).Contents (Elt Ideal) :=
  Host.scatterAdd (F := Ideal) sd
    (broadcastInDim SN273 ![] hb2 (constant (F := Ideal) S0 .f32 0x00000000#32))
    (broadcastInDim SE1 ![0] hb1 dst)
    (Host.gather gd h
      (broadcastInDim SE1 ![0] hb1
        (select (cmpi .slt src (broadcastInDim SE ![] hb0 (constantI S0 32 0#32)))
          (addi src (broadcastInDim SE ![] hb0 (constantI S0 32 50000#32))) src)))

/-- The projection: entry (p, q) of the output from the edge sums `agg`, the lifted rows `h` and the projection
    matrix `w`. -/
def project (agg h : SN273.Idx → EReal) (w : SP.Idx → EReal) : SN64.Idx → EReal :=
  fun i => Ideal.div (∑ k : Fin 273, clip (clip (agg (ix2 (i 0) k)) + h (ix2 (i 0) k)) * w (ix2 k (i 1))) four

end Cert.Spec

end
-- ==== Proof.ExpandBlock.lean ====
/-
  What one grid point of the lifting kernel leaves in its output block, read at an entry.

  The block's row r and column col hold the clipped feature-map coordinate col of the row's sixteen inputs:
  the body joins eighteen pieces side by side — the constant column, the sixteen columns √2 · z, and for each
  i the sixteen columns z_i · z (the column z_i repeated across and multiplied into z) — and clips the result.
  Column col lies in piece 0 when col = 0, in piece 1 at position col − 1 when col ≤ 16, and otherwise in piece
  2 + i at position j where col = 17 + 16 i + j.
-/
import proofs.«164930_j49065706389958_2_alg».proof.Proof.Gen.KernelIdeal.Frame
import proofs.«164930_j49065706389958_2_alg».proof.Proof.Spec

noncomputable section

namespace Cert.KernelIdeal.ExpandBlock

open Cert.KernelIdeal Cert.KernelIdeal.Gen Idealize.ShloMosaic Idealize.ShloMosaic.ValueIdx

theorem hz : (![0, 0] : Fin 2 → Nat) = fun _ => 0 := funext fun a => by fin_cases a <;> rfl

/-- The last two operations of the body clip their operand entry by entry. -/
theorem clip_apply (v : FVec Ideal S2000x273 .f32) (j : S2000x273.Idx) :
    k0_pay1 (F := Ideal) v j = Cert.Spec.clip (v j) := rfl

/-- The scaled inputs z = x · 0.1 at an entry. -/
theorem scaled_apply (x0 : Vec Ideal S2000x16 .f32) (j : S2000x16.Idx) :
    k0_pay2 (F := Ideal) x0 j = x0 j * Cert.Spec.tenth := rfl

/-- Column i of z, repeated across the sixteen columns and multiplied into z, reads z_i · z_j at (r, j). -/
theorem outer_apply (i : Nat) (hi : i < 16) (z : FVec Ideal S2000x16 .f32) (h1 : S2000x16.Slices ![0, i] S2000x1)
    (h2 : S2000x1.Broadcasts S2000x16) (r : Fin 2000) (j : Fin 16) :
    mulf (broadcastTo S2000x16 (extractStridedSlice S2000x1 ![0, i] z h1) h2) z (ix2 r j)
      = z (ix2 r ⟨i, hi⟩) * z (ix2 r j) := by
  rw [mulf_apply]
  refine congrArg (· * z (ix2 r j)) ?_
  refine (broadcastTo_apply _ h2 (ix2 r j) (ix2 r (0 : Fin 1)) fun a => ?_).trans
    (extractStridedSlice_apply _ z h1 (ix2 r (0 : Fin 1)) (ix2 r ⟨i, hi⟩) fun a => ?_)
  · match a with
    | ⟨0, _⟩ => rfl
    | ⟨1, _⟩ => rfl
  · match a with
    | ⟨0, _⟩ => exact (Nat.zero_add _).symm
    | ⟨1, _⟩ => rfl

/-- An index of a piece agrees with the block's index off the joined axis. -/
theorem off_axis {n : Nat} (r : Fin 2000) (col : Fin 273) (j : Fin n) (hr : (⟨2, ![2000, n]⟩ : Shape).rank = S2000x273.rank) :
    ∀ b : Fin (⟨2, ![2000, n]⟩ : Shape).rank, b.cast hr ≠ (1 : Fin S2000x273.rank) →
      ((ix2 r j : (⟨2, ![2000, n]⟩ : Shape).Idx) b).val = ((ix2 r col : S2000x273.Idx) (b.cast hr)).val := by
  intro b hb
  match b with
  | ⟨0, _⟩ => rfl
  | ⟨1, _⟩ => exact absurd rfl hb

/-- The eighteen pieces the body joins, in order. -/
def pieces (x0 : Vec Ideal S2000x16 .f32) : List ((s : Shape) × (s.Idx → Ideal .f32)) :=
  [⟨S2000x1, k0_pay3 (F := Ideal)⟩, ⟨S2000x16, k0_pay4 x0⟩, ⟨S2000x16, k0_pay5 x0⟩, ⟨S2000x16, k0_pay6 x0⟩, ⟨S2000x16, k0_pay7 x0⟩, ⟨S2000x16, k0_pay8 x0⟩, ⟨S2000x16, k0_pay9 x0⟩, ⟨S2000x16, k0_pay10 x0⟩, ⟨S2000x16, k0_pay11 x0⟩, ⟨S2000x16, k0_pay12 x0⟩, ⟨S2000x16, k0_pay13 x0⟩, ⟨S2000x16, k0_pay14 x0⟩, ⟨S2000x16, k0_pay15 x0⟩, ⟨S2000x16, k0_pay16 x0⟩, ⟨S2000x16, k0_pay17 x0⟩, ⟨S2000x16, k0_pay18 x0⟩, ⟨S2000x16, k0_pay19 x0⟩, ⟨S2000x16, k0_pay20 x0⟩]

/-- The pieces' extents along the joined axis: one column, then seventeen times sixteen. -/
def widths : List Nat := [1, 16, 16, 16, 16, 16, 16, 16, 16, 16, 16, 16, 16, 16, 16, 16, 16, 16]

theorem widths_eq (x0 : Vec Ideal S2000x16 .f32) :
    ((pieces x0).map (·.1)).map (fun s => if h : s.rank = S2000x273.rank then s.size ((1 : Fin S2000x273.rank).cast h.symm) else 0)
      = widths := rfl

/-- The extents before piece k sum to what the first k entries of `widths` sum to. -/
theorem pre_eq (x0 : Vec Ideal S2000x16 .f32) (k pre : Nat) (hp : (widths.take k).sum = pre) :
    ((((pieces x0).take k).map (·.1)).map
      (fun s => if h : s.rank = S2000x273.rank then s.size ((1 : Fin S2000x273.rank).cast h.symm) else 0)).sum = pre := by
  rw [← hp, ← widths_eq x0, List.map_take, List.map_take]

/-- Piece 2 + n is column n of z times z. -/
theorem quad_apply_n (n : Nat) (hn : n < 16) (x0 : Vec Ideal S2000x16 .f32) (p : FVec Ideal S2000x16 .f32)
    (h1 : S2000x16.Slices ![0, n] S2000x1) (h2 : S2000x1.Broadcasts S2000x16)
    (hp : p = mulf (broadcastTo S2000x16 (extractStridedSlice S2000x1 ![0, n] (k0_pay2 x0) h1) h2) (k0_pay2 x0))
    (r : Fin 2000) (j : Fin 16) :
    p (ix2 r j) = (x0 (ix2 r ⟨n, hn⟩) * Cert.Spec.tenth) * (x0 (ix2 r j) * Cert.Spec.tenth) := by
  subst hp
  exact (outer_apply n hn (k0_pay2 x0) h1 h2 r j).trans (by rw [scaled_apply, scaled_apply])

/-! Piece 2 + n of the join is column n of z times z; it starts at column 17 + 16 n (one statement per n: the
    sixteen pieces are sixteen different terms of the body). -/

theorem quad_piece_0 (x0 : Vec Ideal S2000x16 .f32) (h : Shape.Concatenates ((pieces x0).map (·.1)) S2000x273 1)
    (r : Fin 2000) (col : Fin 273) (j : Fin 16) (hij : col.val = 17 + 16 * 0 + j.val) :
    concatenate S2000x273 1 (pieces x0) h (ix2 r col)
      = (x0 (ix2 r ⟨0, by omega⟩) * Cert.Spec.tenth) * (x0 (ix2 r j) * Cert.Spec.tenth) :=
  (concatenate_apply_piece (t := S2000x273) 1 (pieces x0) h (ix2 r col) (2 + 0) (by show (2 + 0 : Nat) < 18; omega)
      S2000x16 (k0_pay5 x0) rfl rfl (17 + 16 * 0) (pre_eq x0 (2 + 0) (17 + 16 * 0) (by decide))
      (ix2 r j) (off_axis r col j rfl) (by show 17 + 16 * 0 + j.val = col.val; omega)).trans
    (quad_apply_n 0 (by omega) x0 (k0_pay5 x0) _ _ rfl r j)

theorem quad_piece_1 (x0 : Vec Ideal S2000x16 .f32) (h : Shape.Concatenates ((pieces x0).map (·.1)) S2000x273 1)
    (r : Fin 2000) (col : Fin 273) (j : Fin 16) (hij : col.val = 17 + 16 * 1 + j.val) :
    concatenate S2000x273 1 (pieces x0) h (ix2 r col)
      = (x0 (ix2 r ⟨1, by omega⟩) * Cert.Spec.tenth) * (x0 (ix2 r j) * Cert.Spec.tenth) :=
  (concatenate_apply_piece (t := S2000x273) 1 (pieces x0) h (ix2 r col) (2 + 1) (by show (2 + 1 : Nat) < 18; omega)
      S2000x16 (k0_pay6 x0) rfl rfl (17 + 16 * 1) (pre_eq x0 (2 + 1) (17 + 16 * 1) (by decide))
      (ix2 r j) (off_axis r col j rfl) (by show 17 + 16 * 1 + j.val = col.val; omega)).trans
    (quad_apply_n 1 (by omega) x0 (k0_pay6 x0) _ _ rfl r j)

theorem quad_piece_2 (x0 : Vec Ideal S2000x16 .f32) (h : Shape.Concatenates ((pieces x0).map (·.1)) S2000x273 1)
    (r : Fin 2000) (col : Fin 273) (j : Fin 16) (hij : col.val = 17 + 16 * 2 + j.val) :
    concatenate S2000x273 1 (pieces x0) h (ix2 r col)
      = (x0 (ix2 r ⟨2, by omega⟩) * Cert.Spec.tenth) * (x0 (ix2 r j) * Cert.Spec.tenth) :=
  (concatenate_apply_piece (t := S2000x273) 1 (pieces x0) h (ix2 r col) (2 + 2) (by show (2 + 2 : Nat) < 18; omega)
      S2000x16 (k0_pay7 x0) rfl rfl (17 + 16 * 2) (pre_eq x0 (2 + 2) (17 + 16 * 2) (by decide))
      (ix2 r j) (off_axis r col j rfl) (by show 17 + 16 * 2 + j.val = col.val; omega)).trans
    (quad_apply_n 2 (by omega) x0 (k0_pay7 x0) _ _ rfl r j)

theorem quad_piece_3 (x0 : Vec Ideal S2000x16 .f32) (h : Shape.Concatenates ((pieces x0).map (·.1)) S2000x273 1)
    (r : Fin 2000) (col : Fin 273) (j : Fin 16) (hij : col.val = 17 + 16 * 3 + j.val) :
    concatenate S2000x273 1 (pieces x0) h (ix2 r col)
      = (x0 (ix2 r ⟨3, by omega⟩) * Cert.Spec.tenth) * (x0 (ix2 r j) * Cert.Spec.tenth) :=
  (concatenate_apply_piece (t := S2000x273) 1 (pieces x0) h (ix2 r col) (2 + 3) (by show (2 + 3 : Nat) < 18; omega)
      S2000x16 (k0_pay8 x0) rfl rfl (17 + 16 * 3) (pre_eq x0 (2 + 3) (17 + 16 * 3) (by decide))
      (ix2 r j) (off_axis r col j rfl) (by show 17 + 16 * 3 + j.val = col.val; omega)).trans
    (quad_apply_n 3 (by omega) x0 (k0_pay8 x0) _ _ rfl r j)

theorem quad_piece_4 (x0 : Vec Ideal S2000x16 .f32) (h : Shape.Concatenates ((pieces x0).map (·.1)) S2000x273 1)
    (r : Fin 2000) (col : Fin 273) (j : Fin 16) (hij : col.val = 17 + 16 * 4 + j.val) :
    concatenate S2000x273 1 (pieces x0) h (ix2 r col)
      = (x0 (ix2 r ⟨4, by omega⟩) * Cert.Spec.tenth) * (x0 (ix2 r j) * Cert.Spec.tenth) :=
  (concatenate_apply_piece (t := S2000x273) 1 (pieces x0) h (ix2 r col) (2 + 4) (by show (2 + 4 : Nat) < 18; omega)
      S2000x16 (k0_pay9 x0) rfl rfl (17 + 16 * 4) (pre_eq x0 (2 + 4) (17 + 16 * 4) (by decide))
      (ix2 r j) (off_axis r col j rfl) (by show 17 + 16 * 4 + j.val = col.val; omega)).trans
    (quad_apply_n 4 (by omega) x0 (k0_pay9 x0) _ _ rfl r j)

theorem quad_piece_5 (x0 : Vec Ideal S2000x16 .f32) (h : Shape.Concatenates ((pieces x0).map (·.1)) S2000x273 1)
    (r : Fin 2000) (col : Fin 273) (j : Fin 16) (hij : col.val = 17 + 16 * 5 + j.val) :
    concatenate S2000x273 1 (pieces x0) h (ix2 r col)
      = (x0 (ix2 r ⟨5, by omega⟩) * Cert.Spec.tenth) * (x0 (ix2 r j) * Cert.Spec.tenth) :=
  (concatenate_apply_piece (t := S2000x273) 1 (pieces x0) h (ix2 r col) (2 + 5) (by show (2 + 5 : Nat) < 18; omega)
      S2000x16 (k0_pay10 x0) rfl rfl (17 + 16 * 5) (pre_eq x0 (2 + 5) (17 + 16 * 5) (by decide))
      (ix2 r j) (off_axis r col j rfl) (by show 17 + 16 * 5 + j.val = col.val; omega)).trans
    (quad_apply_n 5 (by omega) x0 (k0_pay10 x0) _ _ rfl r j)

theorem quad_piece_6 (x0 : Vec Ideal S2000x16 .f32) (h : Shape.Concatenates ((pieces x0).map (·.1)) S2000x273 1)
    (r : Fin 2000) (col : Fin 273) (j : Fin 16) (hij : col.val = 17 + 16 * 6 + j.val) :
    concatenate S2000x273 1 (pieces x0) h (ix2 r col)
      = (x0 (ix2 r ⟨6, by omega⟩) * Cert.Spec.tenth) * (x0 (ix2 r j) * Cert.Spec.tenth) :=
  (concatenate_apply_piece (t := S2000x273) 1 (pieces x0) h (ix2 r col) (2 + 6) (by show (2 + 6 : Nat) < 18; omega)
      S2000x16 (k0_pay11 x0) rfl rfl (17 + 16 * 6) (pre_eq x0 (2 + 6) (17 + 16 * 6) (by decide))
      (ix2 r j) (off_axis r col j rfl) (by show 17 + 16 * 6 + j.val = col.val; omega)).trans
    (quad_apply_n 6 (by omega) x0 (k0_pay11 x0) _ _ rfl r j)

theorem quad_piece_7 (x0 : Vec Ideal S2000x16 .f32) (h : Shape.Concatenates ((pieces x0).map (·.1)) S2000x273 1)
    (r : Fin 2000) (col : Fin 273) (j : Fin 16) (hij : col.val = 17 + 16 * 7 + j.val) :
    concatenate S2000x273 1 (pieces x0) h (ix2 r col)
      = (x0 (ix2 r ⟨7, by omega⟩) * Cert.Spec.tenth) * (x0 (ix2 r j) * Cert.Spec.tenth) :=
  (concatenate_apply_piece (t := S2000x273) 1 (pieces x0) h (ix2 r col) (2 + 7) (by show (2 + 7 : Nat) < 18; omega)
      S2000x16 (k0_pay12 x0) rfl rfl (17 + 16 * 7) (pre_eq x0 (2 + 7) (17 + 16 * 7) (by decide))
      (ix2 r j) (off_axis r col j rfl) (by show 17 + 16 * 7 + j.val = col.val; omega)).trans
    (quad_apply_n 7 (by omega) x0 (k0_pay12 x0) _ _ rfl r j)

theorem quad_piece_8 (x0 : Vec Ideal S2000x16 .f32) (h : Shape.Concatenates ((pieces x0).map (·.1)) S2000x273 1)
    (r : Fin 2000) (col : Fin 273) (j : Fin 16) (hij : col.val = 17 + 16 * 8 + j.val) :
    concatenate S2000x273 1 (pieces x0) h (ix2 r col)
      = (x0 (ix2 r ⟨8, by omega⟩) * Cert.Spec.tenth) * (x0 (ix2 r j) * Cert.Spec.tenth) :=
  (concatenate_apply_piece (t := S2000x273) 1 (pieces x0) h (ix2 r col) (2 + 8) (by show (2 + 8 : Nat) < 18; omega)
      S2000x16 (k0_pay13 x0) rfl rfl (17 + 16 * 8) (pre_eq x0 (2 + 8) (17 + 16 * 8) (by decide))
      (ix2 r j) (off_axis r col j rfl) (by show 17 + 16 * 8 + j.val = col.val; omega)).trans
    (quad_apply_n 8 (by omega) x0 (k0_pay13 x0) _ _ rfl r j)

theorem quad_piece_9 (x0 : Vec Ideal S2000x16 .f32) (h : Shape.Concatenates ((pieces x0).map (·.1)) S2000x273 1)
    (r : Fin 2000) (col : Fin 273) (j : Fin 16) (hij : col.val = 17 + 16 * 9 + j.val) :
    concatenate S2000x273 1 (pieces x0) h (ix2 r col)
      = (x0 (ix2 r ⟨9, by omega⟩) * Cert.Spec.tenth) * (x0 (ix2 r j) * Cert.Spec.tenth) :=
  (concatenate_apply_piece (t := S2000x273) 1 (pieces x0) h (ix2 r col) (2 + 9) (by show (2 + 9 : Nat) < 18; omega)
      S2000x16 (k0_pay14 x0) rfl rfl (17 + 16 * 9) (pre_eq x0 (2 + 9) (17 + 16 * 9) (by decide))
      (ix2 r j) (off_axis r col j rfl) (by show 17 + 16 * 9 + j.val = col.val; omega)).trans
    (quad_apply_n 9 (by omega) x0 (k0_pay14 x0) _ _ rfl r j)

theorem quad_piece_10 (x0 : Vec Ideal S2000x16 .f32) (h : Shape.Concatenates ((pieces x0).map (·.1)) S2000x273 1)
    (r : Fin 2000) (col : Fin 273) (j : Fin 16) (hij : col.val = 17 + 16 * 10 + j.val) :
    concatenate S2000x273 1 (pieces x0) h (ix2 r col)
      = (x0 (ix2 r ⟨10, by omega⟩) * Cert.Spec.tenth) * (x0 (ix2 r j) * Cert.Spec.tenth) :=
  (concatenate_apply_piece (t := S2000x273) 1 (pieces x0) h (ix2 r col) (2 + 10) (by show (2 + 10 : Nat) < 18; omega)
      S2000x16 (k0_pay15 x0) rfl rfl (17 + 16 * 10) (pre_eq x0 (2 + 10) (17 + 16 * 10) (by decide))
      (ix2 r j) (off_axis r col j rfl) (by show 17 + 16 * 10 + j.val = col.val; omega)).trans
    (quad_apply_n 10 (by omega) x0 (k0_pay15 x0) _ _ rfl r j)

theorem quad_piece_11 (x0 : Vec Ideal S2000x16 .f32) (h : Shape.Concatenates ((pieces x0).map (·.1)) S2000x273 1)
    (r : Fin 2000) (col : Fin 273) (j : Fin 16) (hij : col.val = 17 + 16 * 11 + j.val) :
    concatenate S2000x273 1 (pieces x0) h (ix2 r col)
      = (x0 (ix2 r ⟨11, by omega⟩) * Cert.Spec.tenth) * (x0 (ix2 r j) * Cert.Spec.tenth) :=
  (concatenate_apply_piece (t := S2000x273) 1 (pieces x0) h (ix2 r col) (2 + 11) (by show (2 + 11 : Nat) < 18; omega)
      S2000x16 (k0_pay16 x0) rfl rfl (17 + 16 * 11) (pre_eq x0 (2 + 11) (17 + 16 * 11) (by decide))
      (ix2 r j) (off_axis r col j rfl) (by show 17 + 16 * 11 + j.val = col.val; omega)).trans
    (quad_apply_n 11 (by omega) x0 (k0_pay16 x0) _ _ rfl r j)

theorem quad_piece_12 (x0 : Vec Ideal S2000x16 .f32) (h : Shape.Concatenates ((pieces x0).map (·.1)) S2000x273 1)
    (r : Fin 2000) (col : Fin 273) (j : Fin 16) (hij : col.val = 17 + 16 * 12 + j.val) :
    concatenate S2000x273 1 (pieces x0) h (ix2 r col)
      = (x0 (ix2 r ⟨12, by omega⟩) * Cert.Spec.tenth) * (x0 (ix2 r j) * Cert.Spec.tenth) :=
  (concatenate_apply_piece (t := S2000x273) 1 (pieces x0) h (ix2 r col) (2 + 12) (by show (2 + 12 : Nat) < 18; omega)
      S2000x16 (k0_pay17 x0) rfl rfl (17 + 16 * 12) (pre_eq x0 (2 + 12) (17 + 16 * 12) (by decide))
      (ix2 r j) (off_axis r col j rfl) (by show 17 + 16 * 12 + j.val = col.val; omega)).trans
    (quad_apply_n 12 (by omega) x0 (k0_pay17 x0) _ _ rfl r j)

theorem quad_piece_13 (x0 : Vec Ideal S2000x16 .f32) (h : Shape.Concatenates ((pieces x0).map (·.1)) S2000x273 1)
    (r : Fin 2000) (col : Fin 273) (j : Fin 16) (hij : col.val = 17 + 16 * 13 + j.val) :
    concatenate S2000x273 1 (pieces x0) h (ix2 r col)
      = (x0 (ix2 r ⟨13, by omega⟩) * Cert.Spec.tenth) * (x0 (ix2 r j) * Cert.Spec.tenth) :=
  (concatenate_apply_piece (t := S2000x273) 1 (pieces x0) h (ix2 r col) (2 + 13) (by show (2 + 13 : Nat) < 18; omega)
      S2000x16 (k0_pay18 x0) rfl rfl (17 + 16 * 13) (pre_eq x0 (2 + 13) (17 + 16 * 13) (by decide))
      (ix2 r j) (off_axis r col j rfl) (by show 17 + 16 * 13 + j.val = col.val; omega)).trans
    (quad_apply_n 13 (by omega) x0 (k0_pay18 x0) _ _ rfl r j)

theorem quad_piece_14 (x0 : Vec Ideal S2000x16 .f32) (h : Shape.Concatenates ((pieces x0).map (·.1)) S2000x273 1)
    (r : Fin 2000) (col : Fin 273) (j : Fin 16) (hij : col.val = 17 + 16 * 14 + j.val) :
    concatenate S2000x273 1 (pieces x0) h (ix2 r col)
      = (x0 (ix2 r ⟨14, by omega⟩) * Cert.Spec.tenth) * (x0 (ix2 r j) * Cert.Spec.tenth) :=
  (concatenate_apply_piece (t := S2000x273) 1 (pieces x0) h (ix2 r col) (2 + 14) (by show (2 + 14 : Nat) < 18; omega)
      S2000x16 (k0_pay19 x0) rfl rfl (17 + 16 * 14) (pre_eq x0 (2 + 14) (17 + 16 * 14) (by decide))
      (ix2 r j) (off_axis r col j rfl) (by show 17 + 16 * 14 + j.val = col.val; omega)).trans
    (quad_apply_n 14 (by omega) x0 (k0_pay19 x0) _ _ rfl r j)

theorem quad_piece_15 (x0 : Vec Ideal S2000x16 .f32) (h : Shape.Concatenates ((pieces x0).map (·.1)) S2000x273 1)
    (r : Fin 2000) (col : Fin 273) (j : Fin 16) (hij : col.val = 17 + 16 * 15 + j.val) :
    concatenate S2000x273 1 (pieces x0) h (ix2 r col)
      = (x0 (ix2 r ⟨15, by omega⟩) * Cert.Spec.tenth) * (x0 (ix2 r j) * Cert.Spec.tenth) :=
  (concatenate_apply_piece (t := S2000x273) 1 (pieces x0) h (ix2 r col) (2 + 15) (by show (2 + 15 : Nat) < 18; omega)
      S2000x16 (k0_pay20 x0) rfl rfl (17 + 16 * 15) (pre_eq x0 (2 + 15) (17 + 16 * 15) (by decide))
      (ix2 r j) (off_axis r col j rfl) (by show 17 + 16 * 15 + j.val = col.val; omega)).trans
    (quad_apply_n 15 (by omega) x0 (k0_pay20 x0) _ _ rfl r j)

/-- The join at an entry: the piece that holds the column, at the column's position in it. -/
theorem join_apply (x0 : Vec Ideal S2000x16 .f32) (h : Shape.Concatenates ((pieces x0).map (·.1)) S2000x273 1)
    (r : Fin 2000) (col : Fin 273) :
    concatenate S2000x273 1 (pieces x0) h (ix2 r col)
      = (if h0 : col.val < 1 then Cert.Spec.unit
          else if h1 : col.val < 17 then (x0 (ix2 r ⟨col.val - 1, by omega⟩) * Cert.Spec.tenth) * Cert.Spec.rootTwo
          else (x0 (ix2 r ⟨(col.val - 17) / 16, by omega⟩) * Cert.Spec.tenth) * (x0 (ix2 r ⟨(col.val - 17) % 16, by omega⟩) * Cert.Spec.tenth)) := by
  by_cases h0 : col.val < 1
  · rw [dif_pos h0]
    exact concatenate_apply_piece (t := S2000x273) 1 (pieces x0) h (ix2 r col) 0 (by show (0 : Nat) < 18; omega) S2000x1 (k0_pay3 (F := Ideal)) rfl rfl 0 (pre_eq x0 0 0 (by decide))
      (ix2 r (0 : Fin 1)) (off_axis r col (0 : Fin 1) rfl) (by show 0 + 0 = col.val; omega)
  · rw [dif_neg h0]
    by_cases h1 : col.val < 17
    · rw [dif_pos h1]
      exact concatenate_apply_piece (t := S2000x273) 1 (pieces x0) h (ix2 r col) 1 (by show (1 : Nat) < 18; omega) S2000x16 (k0_pay4 x0) rfl rfl 1 (pre_eq x0 1 1 (by decide))
        (ix2 r (⟨col.val - 1, by omega⟩ : Fin 16)) (off_axis r col (⟨col.val - 1, by omega⟩ : Fin 16) rfl) (by show 1 + (col.val - 1) = col.val; omega)
    · rw [dif_neg h1]
      have hc := col.isLt
      obtain ⟨iv, hiv, j, hij⟩ : ∃ iv : Nat, iv < 16 ∧ ∃ j : Fin 16, col.val = 17 + 16 * iv + j.val :=
        ⟨(col.val - 17) / 16, by omega, ⟨(col.val - 17) % 16, by omega⟩,
          by show col.val = 17 + 16 * ((col.val - 17) / 16) + (col.val - 17) % 16; omega⟩
      have hj := j.isLt
      have ei : (⟨(col.val - 17) / 16, by omega⟩ : Fin 16) = ⟨iv, hiv⟩ := Fin.ext (by show (col.val - 17) / 16 = iv; omega)
      have ej : (⟨(col.val - 17) % 16, by omega⟩ : Fin 16) = j := Fin.ext (by show (col.val - 17) % 16 = j.val; omega)
      rw [ei, ej]
      interval_cases iv
      · exact quad_piece_0 x0 h r col j hij
      · exact quad_piece_1 x0 h r col j hij
      · exact quad_piece_2 x0 h r col j hij
      · exact quad_piece_3 x0 h r col j hij
      · exact quad_piece_4 x0 h r col j hij
      · exact quad_piece_5 x0 h r col j hij
      · exact quad_piece_6 x0 h r col j hij
      · exact quad_piece_7 x0 h r col j hij
      · exact quad_piece_8 x0 h r col j hij
      · exact quad_piece_9 x0 h r col j hij
      · exact quad_piece_10 x0 h r col j hij
      · exact quad_piece_11 x0 h r col j hij
      · exact quad_piece_12 x0 h r col j hij
      · exact quad_piece_13 x0 h r col j hij
      · exact quad_piece_14 x0 h r col j hij
      · exact quad_piece_15 x0 h r col j hij

/-- THE BLOCK AT AN ENTRY: row r, column col of what the body stores is the lifted row of the block's row r. -/
theorem block_apply (x0 : Vec Ideal S2000x16 .f32) (r : Fin 2000) (col : Fin 273) :
    out0_1 (F := Ideal) x0 (ix2 r col) = Cert.Spec.hrow (fun k => x0 (ix2 r k)) col := by
  unfold out0_1
  rw [View.canon_unit_zero hz]
  rw [show View.ld x0 r0_0 = x0 from View.ld_unit_zero hz _ x0]
  rw [clip_apply]
  unfold Cert.Spec.hrow
  exact congrArg Cert.Spec.clip (join_apply x0 _ r col)

/-- The same at any index of the block, its coordinates named. -/
theorem block_apply' (x0 : Vec Ideal S2000x16 .f32) (y : S2000x273.Idx) :
    out0_1 (F := Ideal) x0 y = Cert.Spec.hrow (fun k => x0 (ix2 (y 0) k)) (y 1) :=
  (congrArg (out0_1 (F := Ideal) x0) (eq_ix2 y)).trans (block_apply x0 (y 0) (y 1))

end Cert.KernelIdeal.ExpandBlock

end
-- ==== Proof.LibDotSum.lean ====
/-
  A product contracted over one axis, a bias repeated over rows, and the word for the number one, at an index.

  Three facts about arrays of extended reals read at one entry, none of which mentions a particular size. A product
  of an `M × K` by a `K × N` array contracted over the shared axis is, at `(p, q)`, the sum over `k : Fin K` of
  `A (p, k) · B (k, q)` (`sum_dot`): the contraction's index set has a single axis, so it is in bijection with that
  axis's coordinate, and the operand indices at output `(p, q)` and contraction position `k` are `(p, k)` and `(k, q)`.
  A vector of `m` column values laid out as the one row `[1, m]` and repeated over `n` rows reads, at `(p, q)`, its
  entry `q` (`bias_apply`): a repeated axis of extent one reads coordinate `0`, every other axis its own coordinate.
  The 32-bit word `0x3F800000` denotes the number one (`one_f32`). `add3` is the congruence of a sum of three terms.
-/
import Idealize.ShloMosaic.PureOps.Ideal.Laws
import Idealize.ShloMosaic.Lib.ValueIdx
import Idealize.ShloMosaic.Lib.Pipeline.Value

noncomputable section

namespace Cert.LibDotSum

open Idealize.ShloMosaic Idealize.ShloMosaic.ValueIdx

/-! ## A contraction over one axis as a sum over that axis's coordinate -/

/-- For a product of an `M × K` by a `K × N` array contracted over the shared axis, the sum over the contraction
    index set is the sum over `k : Fin K` of `A (p, k) · B (k, q)`: the contraction index is its one coordinate, and
    the operand indices at output `(p, q)` are `(p, k)` and `(k, q)` (the four hypotheses, which compute on a
    given record of dimension numbers). -/
theorem sum_dot {M K N : Nat} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (A : (⟨2, ![M, K]⟩ : Shape).Idx → EReal) (B : (⟨2, ![K, N]⟩ : Shape).Idx → EReal) (p : Fin M) (q : Fin N) :
    ∑ k : D.contr.Idx, A (D.lhsIdx (ix2 p q) k) * B (D.rhsIdx (ix2 p q) k) = ∑ k : Fin K, A (ix2 p k) * B (ix2 k q) := by
  refine Fintype.sum_equiv (contrEquiv1 D K hr hs) _ _ fun k => ?_
  have ha : D.lhsIdx (ix2 p q) k = ix2 p (contrEquiv1 D K hr hs k) := by
    funext a
    match a with
    | ⟨0, _⟩ => exact Fin.ext (hl0 _ k)
    | ⟨1, _⟩ => exact Fin.ext (hl1 _ k)
  have hb : D.rhsIdx (ix2 p q) k = ix2 (contrEquiv1 D K hr hs k) q := by
    funext a
    match a with
    | ⟨0, _⟩ => exact Fin.ext (hr0 _ k)
    | ⟨1, _⟩ => exact Fin.ext (hr1 _ k)
  rw [ha, hb]

/-- Three summands equal term by term. -/
theorem add3 {a b c a' b' c' : EReal} (h1 : a = a') (h2 : b = b') (h3 : c = c') : a + b + c = a' + b' + c' := by
  rw [h1, h2, h3]

/-! ## The word for the number one -/

/-- The word `0x3F800000` is the number one. -/
theorem one_f32 : Ideal.ofBits .f32 0x3F800000#32 = 1 := IdealRules.sign_bit.ideal_onePat .f32

/-! ## A bias repeated over rows, at an index -/

/-- A bias vector `[m]`, laid out as the one row `[1, m]` and repeated over `n` rows, reads at `(p, q)` its entry `q`. -/
theorem bias_apply {n m : Nat} {α : Type} (b : (⟨1, ![m]⟩ : Shape).Idx → α)
    (h1 : (⟨1, ![m]⟩ : Shape).BroadcastsInDim ⟨2, ![1, m]⟩ ![1])
    (h2 : (⟨2, ![1, m]⟩ : Shape).BroadcastsInDim ⟨2, ![n, m]⟩ ![0, 1]) (p : Fin n) (q : Fin m) :
    broadcastInDim ⟨2, ![n, m]⟩ ![0, 1] h2 (broadcastInDim ⟨2, ![1, m]⟩ ![1] h1 b) (ix2 p q) = b (ix1 q) := by
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ =>
      show q.val = if m = 1 then 0 else q.val
      split
      · have := q.isLt; omega
      · rfl
  · match a with
    | ⟨0, _⟩ =>
      show q.val = if m = 1 then 0 else q.val
      split
      · have := q.isLt; omega
      · rfl

end Cert.LibDotSum

end
-- ==== Proof.CombineBlock.lean ====
/-
  What one grid point of the projection kernel leaves in its output block, read at an entry.

  The body clips its block of edge sums, adds the block of lifted rows, clips again, multiplies by the whole
  273 × 64 projection matrix into a zero accumulator and divides by 4. At the extended reals the roundings to
  the narrow format are the identity and the product's entry (r, q) is the sum over k : Fin 273 of the left
  entry (r, k) times the right entry (k, q): the contraction index set has one axis, the operand indices at
  output (r, q) and contraction position k are (r, k) and (k, q).
-/
import proofs.«164930_j49065706389958_2_alg».proof.Proof.Gen.KernelIdeal.Frame
import proofs.«164930_j49065706389958_2_alg».proof.Proof.Spec
import proofs.«164930_j49065706389958_2_alg».proof.Proof.LibDotSum

noncomputable section

namespace Cert.KernelIdeal.CombineBlock

open Cert.KernelIdeal Cert.KernelIdeal.Gen Idealize.ShloMosaic Idealize.ShloMosaic.ValueIdx

theorem hz : (![0, 0] : Fin 2 → Nat) = fun _ => 0 := funext fun a => by fin_cases a <;> rfl

/-- The product's dimension numbers: rows × contraction times contraction × columns. -/
abbrev D : DotDims S2000x273 S273x64 S2000x64 := dot_S2000x273_S273x64_S2000x64_1_0_0_1_n_n

theorem lhs0 (i : S2000x64.Idx) (q : D.contr.Idx) : (D.lhsIdx i q 0).val = (i 0).val := by
  unfold DotDims.lhsIdx
  rw [dif_neg (show ¬(0 : Fin S2000x273.rank) ∈ D.lhsBatch by decide),
    dif_pos (show (0 : Fin S2000x273.rank) ∈ D.lhsNonContracting by decide)]
  rfl
theorem lhs1 (i : S2000x64.Idx) (q : D.contr.Idx) : (D.lhsIdx i q 1).val = (q ⟨0, by decide⟩).val :=
  D.lhsIdx_val_of_single rfl i q
theorem rhs0 (i : S2000x64.Idx) (q : D.contr.Idx) : (D.rhsIdx i q 0).val = (q ⟨0, by decide⟩).val :=
  D.rhsIdx_val_of_single rfl i q
theorem rhs1 (i : S2000x64.Idx) (q : D.contr.Idx) : (D.rhsIdx i q 1).val = (i 1).val := by
  unfold DotDims.rhsIdx
  rw [dif_neg (show ¬(1 : Fin S273x64.rank) ∈ D.rhsBatch by decide),
    dif_pos (show (1 : Fin S273x64.rank) ∈ D.rhsNonContracting by decide)]
  rfl

/-- The body's arithmetic at entry (r, q): the clipped sum of the two left blocks against column q of the matrix, over 4. -/
theorem pay_apply (v0 v6 : Vec Ideal S2000x273 .f32) (v14 : Vec Ideal S273x64 .f32) (r : Fin 2000) (q : Fin 64) :
    k1_pay1 (F := Ideal) v0 v6 v14 (ix2 r q)
      = Ideal.div (∑ k : Fin 273, Cert.Spec.clip (Cert.Spec.clip (v0 (ix2 r k)) + v6 (ix2 r k)) * v14 (ix2 k q)) Cert.Spec.four := by
  unfold k1_pay1
  rw [shapeCast_self, shapeCast_self]
  show Ideal.div (FloatOps.matmul (F := Ideal) D none _ _ (constant (F := Ideal) S2000x64 .f32 0x00000000#32) (ix2 r q)) Cert.Spec.four = _
  refine congrArg (fun s => Ideal.div s Cert.Spec.four) ?_
  refine (Ideal.matmul_constant_zero_apply D none _ _ (ix2 r q)).trans ?_
  refine (Cert.LibDotSum.sum_dot D rfl rfl lhs0 lhs1 rhs0 rhs1 _ _ r q).trans ?_
  exact Finset.sum_congr rfl fun k _ => rfl

/-- THE BLOCK AT AN ENTRY. -/
theorem block_apply (x0 x1 : Vec Ideal S2000x273 .f32) (x2 : Vec Ideal S273x64 .f32) (r : Fin 2000) (q : Fin 64) :
    out1_3 (F := Ideal) x0 x1 x2 (ix2 r q)
      = Ideal.div (∑ k : Fin 273, Cert.Spec.clip (Cert.Spec.clip (x0 (ix2 r k)) + x1 (ix2 r k)) * x2 (ix2 k q)) Cert.Spec.four := by
  unfold out1_3
  rw [View.canon_unit_zero hz]
  simp only [View.ld_unit_zero (S := S2000x273) hz, View.ld_unit_zero (S := S273x64) hz]
  exact pay_apply x0 x1 x2 r q

/-- The same at any index of the block, its coordinates named. -/
theorem block_apply' (x0 x1 : Vec Ideal S2000x273 .f32) (x2 : Vec Ideal S273x64 .f32) (y : S2000x64.Idx) :
    out1_3 (F := Ideal) x0 x1 x2 y
      = Ideal.div (∑ k : Fin 273, Cert.Spec.clip (Cert.Spec.clip (x0 (ix2 (y 0) k)) + x1 (ix2 (y 0) k)) * x2 (ix2 k (y 1))) Cert.Spec.four :=
  (congrArg (out1_3 (F := Ideal) x0 x1 x2) (eq_ix2 y)).trans (block_apply x0 x1 x2 (y 0) (y 1))

end Cert.KernelIdeal.CombineBlock

end
-- ==== Proof.KernelArrays.lean ====
/-
  The two kernels' output arrays after their runs, as whole-array functions of the arrays they read.

  Both grids walk the 50000 rows in 25 blocks of 2000: point t reads rows 2000 t .. 2000 t + 1999 of each
  row-blocked input and writes back the same rows of its output, and the projection matrix is read whole at every
  point. So an array index (p, c) lies in point p / 2000's block at row p mod 2000, and what a point writes back
  is the block of ONE function of the input arrays: the lifted features for the first kernel, the clipped,
  projected and scaled sums for the second. The blocks cover the output, which therefore ends holding that function.
-/
import proofs.«164930_j49065706389958_2_alg».proof.Proof.ExpandBlock
import proofs.«164930_j49065706389958_2_alg».proof.Proof.CombineBlock

set_option maxRecDepth 16384

noncomputable section

namespace Cert.KernelIdeal.KernelArrays

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-! ## The lifting kernel -/

/-- The index maps over the grid: point t's blocks are block-row t of the inputs and of the output. -/
theorem idx0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point t writes back is block t of the lifted features of the input array. -/
theorem flushed0 (c : Dev nD) (t : Fin cfg0.N) :
    (dat0 V c).flushed 1 t = ((cfg0.win 1).blk t).view.read (Elt Ideal) (Cert.Spec.expand (V c main_arg0)) := by
  show (cfg0.win 1).cut (grid0.coords t) ((dat0 V c).after 1 t) = _
  rw [after0_1]
  obtain ⟨a0, a1, b0, b1⟩ := idx0 t
  funext y
  refine (ExpandBlock.block_apply' (iblk0 V c 0 t) y).trans ?_
  show _ = Cert.Spec.expand (V c main_arg0) (((cfg0.win 1).blk t).view.emb y)
  unfold Cert.Spec.expand
  have e1 : (((cfg0.win 1).blk t).view.emb y) 1 = y 1 :=
    Fin.ext (by show win0_1.index t (1 : Fin 2) * 273 + 1 * (y 1).val = (y 1).val; omega)
  have e0 : (fun k : Fin 16 => iblk0 V c 0 t (ix2 (y 0) k))
      = fun k : Fin 16 => V c main_arg0 (ix2 ((((cfg0.win 1).blk t).view.emb y) 0) k) := funext fun k => by
    show V c main_arg0 (((cfg0.win 0).blk t).view.emb (ix2 (y 0) k)) = _
    refine congrArg (V c main_arg0) (funext fun a => Fin.ext ?_)
    match a with
    | ⟨0, _⟩ => show win0_0.index t (0 : Fin 2) * 2000 + 1 * (y 0).val = win0_1.index t (0 : Fin 2) * 2000 + 1 * (y 0).val; omega
    | ⟨1, _⟩ => show win0_0.index t (1 : Fin 2) * 16 + 1 * k.val = k.val; omega
  rw [e0, e1]

/-- An index of the output array is in point t's block iff each coordinate is in the block's range on its axis. -/
theorem mem_blk0 (t : Fin cfg0.N) (i : S50000x273.Idx) :
    i ∈ ((cfg0.win 1).blk t).view.set ↔ ∀ a : Fin 2, win0_1.index t a * S2000x273.size a ≤ (i a).val ∧ (i a).val < win0_1.index t a * S2000x273.size a + S2000x273.size a := by
  show i ∈ ((View.whole main_v0).slice (win0_1.rect t)).set ↔ _
  rw [View.set_slice_whole, Rect.mem_set_unit]
  exact Iff.rfl

/-- Every index of the output is in the block of the point that owns its row. -/
theorem cover0 (i : S50000x273.Idx) : ∃ t : Fin cfg0.N, (cfg0.win 1).flush t = true ∧ i ∈ ((cfg0.win 1).blk t).view.set := by
  have hi0 : (i 0).val < 50000 := (i 0).isLt
  have hi1 : (i 1).val < 273 := (i 1).isLt
  have hN : cfg0.N = 25 := N_0
  refine ⟨⟨(i 0).val / 2000, by rw [hN]; omega⟩, flush0_1 _, ?_⟩
  rw [mem_blk0]
  obtain ⟨a0, a1, b0, b1⟩ := idx0 ⟨(i 0).val / 2000, by rw [hN]; omega⟩
  intro a
  match a with
  | ⟨0, _⟩ =>
    show win0_1.index _ (0 : Fin 2) * 2000 ≤ (i 0).val ∧ (i 0).val < win0_1.index _ (0 : Fin 2) * 2000 + 2000
    rw [b0]; show (i 0).val / 2000 * 2000 ≤ (i 0).val ∧ (i 0).val < (i 0).val / 2000 * 2000 + 2000; omega
  | ⟨1, _⟩ =>
    show win0_1.index _ (1 : Fin 2) * 273 ≤ (i 1).val ∧ (i 1).val < win0_1.index _ (1 : Fin 2) * 273 + 273
    rw [b1]; omega

/-- THE LIFTED ARRAY: after the first kernel's run its output holds the lifted features of its input. -/
theorem final0 (c : Dev nD) : (dat0 V c).arrAt 1 cfg0.N = Cert.Spec.expand (V c main_arg0) :=
  (dat0 V c).arrAt_eq_of_cover 1 (Cert.Spec.expand (V c main_arg0)) (fun t _ => flushed0 V c t) cover0

/-! ## The projection kernel -/

/-- The index maps over the grid: the row-blocked windows at block-row t, the matrix at its one block. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the projection of the arrays the kernel reads. -/
theorem flushed1 (c : Dev nD) (t : Fin cfg1.N) :
    (dat1 V c).flushed 3 t = ((cfg1.win 3).blk t).view.read (Elt Ideal)
      (Cert.Spec.project (V c main_v10) (V c main_v0) (V c main_arg3)) := by
  show (cfg1.win 3).cut (grid1.coords t) ((dat1 V c).after 3 t) = _
  rw [after1_3]
  obtain ⟨a0, a1, b0, b1, c0, c1, d0, d1⟩ := idx1 t
  funext y
  refine (CombineBlock.block_apply' (iblk1 V c 0 t) (iblk1 V c 1 t) (iblk1 V c 2 t) y).trans ?_
  show _ = Cert.Spec.project (V c main_v10) (V c main_v0) (V c main_arg3) (((cfg1.win 3).blk t).view.emb y)
  unfold Cert.Spec.project
  refine congrArg (fun s => Ideal.div s Cert.Spec.four) (Finset.sum_congr rfl fun k _ => ?_)
  have e0 : iblk1 V c 0 t (ix2 (y 0) k) = V c main_v10 (ix2 ((((cfg1.win 3).blk t).view.emb y) 0) k) := by
    show V c main_v10 (((cfg1.win 0).blk t).view.emb (ix2 (y 0) k)) = _
    refine congrArg (V c main_v10) (funext fun a => Fin.ext ?_)
    match a with
    | ⟨0, _⟩ => show win1_0.index t (0 : Fin 2) * 2000 + 1 * (y 0).val = win1_3.index t (0 : Fin 2) * 2000 + 1 * (y 0).val; omega
    | ⟨1, _⟩ => show win1_0.index t (1 : Fin 2) * 273 + 1 * k.val = k.val; omega
  have e1 : iblk1 V c 1 t (ix2 (y 0) k) = V c main_v0 (ix2 ((((cfg1.win 3).blk t).view.emb y) 0) k) := by
    show V c main_v0 (((cfg1.win 1).blk t).view.emb (ix2 (y 0) k)) = _
    refine congrArg (V c main_v0) (funext fun a => Fin.ext ?_)
    match a with
    | ⟨0, _⟩ => show win1_1.index t (0 : Fin 2) * 2000 + 1 * (y 0).val = win1_3.index t (0 : Fin 2) * 2000 + 1 * (y 0).val; omega
    | ⟨1, _⟩ => show win1_1.index t (1 : Fin 2) * 273 + 1 * k.val = k.val; omega
  have e2 : iblk1 V c 2 t (ix2 k (y 1)) = V c main_arg3 (ix2 k ((((cfg1.win 3).blk t).view.emb y) 1)) := by
    show V c main_arg3 (((cfg1.win 2).blk t).view.emb (ix2 k (y 1))) = _
    refine congrArg (V c main_arg3) (funext fun a => Fin.ext ?_)
    match a with
    | ⟨0, _⟩ => show win1_2.index t (0 : Fin 2) * 273 + 1 * k.val = k.val; omega
    | ⟨1, _⟩ => show win1_2.index t (1 : Fin 2) * 64 + 1 * (y 1).val = win1_3.index t (1 : Fin 2) * 64 + 1 * (y 1).val; omega
  rw [e0, e1, e2]

/-- An index of the output array is in point t's block iff each coordinate is in the block's range on its axis. -/
theorem mem_blk1 (t : Fin cfg1.N) (i : S50000x64.Idx) :
    i ∈ ((cfg1.win 3).blk t).view.set ↔ ∀ a : Fin 2, win1_3.index t a * S2000x64.size a ≤ (i a).val ∧ (i a).val < win1_3.index t a * S2000x64.size a + S2000x64.size a := by
  show i ∈ ((View.whole main_v11).slice (win1_3.rect t)).set ↔ _
  rw [View.set_slice_whole, Rect.mem_set_unit]
  exact Iff.rfl

/-- Every index of the output is in the block of the point that owns its row. -/
theorem cover1 (i : S50000x64.Idx) : ∃ t : Fin cfg1.N, (cfg1.win 3).flush t = true ∧ i ∈ ((cfg1.win 3).blk t).view.set := by
  have hi0 : (i 0).val < 50000 := (i 0).isLt
  have hi1 : (i 1).val < 64 := (i 1).isLt
  have hN : cfg1.N = 25 := N_1
  refine ⟨⟨(i 0).val / 2000, by rw [hN]; omega⟩, flush1_3 _, ?_⟩
  rw [mem_blk1]
  obtain ⟨a0, a1, b0, b1, c0, c1, d0, d1⟩ := idx1 ⟨(i 0).val / 2000, by rw [hN]; omega⟩
  intro a
  match a with
  | ⟨0, _⟩ =>
    show win1_3.index _ (0 : Fin 2) * 2000 ≤ (i 0).val ∧ (i 0).val < win1_3.index _ (0 : Fin 2) * 2000 + 2000
    rw [d0]; show (i 0).val / 2000 * 2000 ≤ (i 0).val ∧ (i 0).val < (i 0).val / 2000 * 2000 + 2000; omega
  | ⟨1, _⟩ =>
    show win1_3.index _ (1 : Fin 2) * 64 ≤ (i 1).val ∧ (i 1).val < win1_3.index _ (1 : Fin 2) * 64 + 64
    rw [d1]; omega

/-- THE PROJECTED ARRAY: after the second kernel's run its output holds the projection of the arrays it read. -/
theorem final1 (c : Dev nD) :
    (dat1 V c).arrAt 3 cfg1.N = Cert.Spec.project (V c main_v10) (V c main_v0) (V c main_arg3) :=
  (dat1 V c).arrAt_eq_of_cover 3 (Cert.Spec.project (V c main_v10) (V c main_v0) (V c main_arg3))
    (fun t _ => flushed1 V c t) cover1

end Cert.KernelIdeal.KernelArrays

end
-- ==== Proof.KernelValue.lean ====
/-
  The result buffer's final contents as a function of the arguments.

  The last boundary's contents at the result buffer are what the second kernel's write-backs leave: the
  projection of the arrays that kernel finds. Those are the host's edge sums, the lifted features and the
  projection matrix: the host's operations between the kernels write the edge sums from the lifted features and
  the two index arguments and touch nothing else, and the lifted features are what the first kernel's write-backs
  left, the lifting of the first argument.
-/
import proofs.«164930_j49065706389958_2_alg».proof.Proof.KernelArrays

set_option maxRecDepth 16384

noncomputable section

namespace Cert.KernelIdeal.KernelValue

open Cert.KernelIdeal Cert.KernelIdeal.Gen
open Idealize.ShloMosaic Idealize.ShloMosaic.TcCoe Idealize.ShloMosaic.ValueIdx Idealize.ShloMosaic.StableHlo
open Idealize.SL.Sem

variable (m : (ℓ : Loc nD τ sig) → Buf (Elt Ideal) ℓ) (ρ : Dev nD → PrngReg)

/-- The result as a function of the four argument arrays. -/
def result (x0 : (⟨S50000x16, .f32⟩ : BufTy).Contents (Elt Ideal)) (x1 x2 : (⟨S400000, .i32⟩ : BufTy).Contents (Elt Ideal))
    (x3 : (⟨S273x64, .f32⟩ : BufTy).Contents (Elt Ideal)) : (⟨S50000x64, .f32⟩ : BufTy).Contents (Elt Ideal) :=
  Cert.Spec.project
    (Cert.Spec.edgeSum gather_S50000x273_S400000x1_S400000x273_1_0_n_n_0_1_1273 scatter_S50000x273_S400000x1_S400000x273_1_0_0_1
      Facts₀.bcast_S_S400000 Facts₀.bcast_S400000_S400000x1_0 Facts₀.bcast_S_S50000x273 (Cert.Spec.expand x0) x1 x2)
    (Cert.Spec.expand x0) x3

/-- After the first kernel its output buffer holds the lifted features of the first argument. -/
theorem lifted (c : Dev nD) : W1 m ρ c (Proc.devRef .tc main_v0) = Cert.Spec.expand (m ((c : Thread nD τ).loc main_arg0)) :=
  (W1_arr m ρ c 1).trans (KernelArrays.final0 (V0 m ρ) c)

/-- The first kernel leaves the index arguments and the matrix as launched. -/
theorem kept1 (c : Dev nD) : W1 m ρ c (Proc.devRef .tc main_arg1) = m ((c : Thread nD τ).loc main_arg1) :=
  W1_of_ne m ρ c main_arg1 (by decide)
theorem kept2 (c : Dev nD) : W1 m ρ c (Proc.devRef .tc main_arg2) = m ((c : Thread nD τ).loc main_arg2) :=
  W1_of_ne m ρ c main_arg2 (by decide)
theorem kept3 (c : Dev nD) : W1 m ρ c (Proc.devRef .tc main_arg3) = m ((c : Thread nD τ).loc main_arg3) :=
  W1_of_ne m ρ c main_arg3 (by decide)

/-- The host's operations write the edge sums of what they find, -/
theorem sums (c : Dev nD) : V2 m ρ c main_v10 =
    Cert.Spec.edgeSum gather_S50000x273_S400000x1_S400000x273_1_0_n_n_0_1_1273 scatter_S50000x273_S400000x1_S400000x273_1_0_0_1
      Facts₀.bcast_S_S400000 Facts₀.bcast_S400000_S400000x1_0 Facts₀.bcast_S_S50000x273
      (W1 m ρ c (Proc.devRef .tc main_v0)) (W1 m ρ c (Proc.devRef .tc main_arg1)) (W1 m ρ c (Proc.devRef .tc main_arg2)) := by
  show StableHlo.after hostOps1 (W1 m ρ c) (Proc.devRef .tc main_v10) = _
  after_results
  rfl

/-- and leave the lifted features and the matrix alone. -/
theorem lifted2 (c : Dev nD) : V2 m ρ c main_v0 = W1 m ρ c (Proc.devRef .tc main_v0) := by
  show StableHlo.after hostOps1 (W1 m ρ c) (Proc.devRef .tc main_v0) = _
  after_results
theorem matrix2 (c : Dev nD) : V2 m ρ c main_arg3 = W1 m ρ c (Proc.devRef .tc main_arg3) := by
  show StableHlo.after hostOps1 (W1 m ρ c) (Proc.devRef .tc main_arg3) = _
  after_results

/-- THE RESULT: the last boundary's contents at the result buffer are `result` of the launch contents of the arguments. -/
theorem out_eq (c : Dev nD) : W3 m ρ c (Proc.devRef .tc main_v11) =
    result (m ((c : Thread nD τ).loc main_arg0)) (m ((c : Thread nD τ).loc main_arg1))
      (m ((c : Thread nD τ).loc main_arg2)) (m ((c : Thread nD τ).loc main_arg3)) := by
  refine (W3_arr m ρ c 3).trans ((KernelArrays.final1 (V2 m ρ) c).trans ?_)
  rw [sums, lifted2, matrix2, lifted, kept1, kept2, kept3]
  rfl

end Cert.KernelIdeal.KernelValue

end
-- ==== Proof.RefValue.lean ====
/-
  The reference program's value, read against the specification.

  Two facts. (1) The clipped lift the reference builds (a constant column, sixteen scaled columns, and the 256
  pairwise products, laid side by side and clipped) is the specification's feature map, coordinate by coordinate.
  (2) The reference's result is the specification's projection of the edge sum of that lift: the chain of host
  operations that forms the edge sum is the same term on both sides and is never opened; what follows it (clip, add
  the node's own row, clip, multiply by the projection matrix, divide by four) is read entry by entry.
-/
import proofs.«164930_j49065706389958_2_alg».proof.Proof.Gen.ReferenceIdeal.Read
import proofs.«164930_j49065706389958_2_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The scaled features: entry (p, a) is one tenth times the feature. -/
theorem v1_at (x0 : (⟨S50000x16, .f32⟩ : BufTy).Contents (Elt Ideal)) (p : Fin 50000) (a : Fin 16) :
    val_main_v1 (F := Ideal) x0 (ix2 p a) = Cert.Spec.tenth * x0 (ix2 p a) := by
  rw [val_main_v1_apply, val_main_v0_apply, val_main_cst_apply]
  rfl

/-- The linear block: entry (p, a) is the root-two word times the scaled feature. -/
theorem v4_at (x0 : (⟨S50000x16, .f32⟩ : BufTy).Contents (Elt Ideal)) (p : Fin 50000) (a : Fin 16) :
    val_main_v4 (F := Ideal) x0 (ix2 p a) = Cert.Spec.rootTwo * (Cert.Spec.tenth * x0 (ix2 p a)) := by
  rw [val_main_v4_apply, val_main_v3_apply, val_main_cst_1_apply, v1_at]
  rfl

/-- The quadratic block, flattened row-major: entry (p, c) is the product of the scaled features c / 16 and c % 16. -/
theorem v10_at (x0 : (⟨S50000x16, .f32⟩ : BufTy).Contents (Elt Ideal)) (p : Fin 50000) (c : Fin 256) :
    val_main_v10 (F := Ideal) x0 (ix2 p c) =
      (Cert.Spec.tenth * x0 (ix2 p ⟨c.val / 16, by omega⟩)) * (Cert.Spec.tenth * x0 (ix2 p ⟨c.val % 16, by omega⟩)) := by
  have hp : p.val < 50000 := p.isLt
  have hc : c.val < 256 := c.isLt
  have e7 : idx_main_v5 (idx_main_v7 (idx_main_v10 (ix2 p c))) = ix2 p ⟨c.val / 16, by omega⟩ := by
    funext a
    match a with
    | ⟨0, _⟩ => exact Fin.ext (show (p.val * 256 + c.val) / 256 = p.val by omega)
    | ⟨1, _⟩ => exact Fin.ext (show (p.val * 256 + c.val) / 16 % 16 = c.val / 16 by omega)
  have e8 : idx_main_v6 (idx_main_v8 (idx_main_v10 (ix2 p c))) = ix2 p ⟨c.val % 16, by omega⟩ := by
    funext a
    match a with
    | ⟨0, _⟩ => exact Fin.ext (show (p.val * 256 + c.val) / 256 = p.val by omega)
    | ⟨1, _⟩ => exact Fin.ext (show (p.val * 256 + c.val) % 16 = c.val % 16 by omega)
  rw [val_main_v10_apply, val_main_v9_apply, val_main_v7_apply, val_main_v5_apply, val_main_v8_apply, val_main_v6_apply,
    e7, e8, v1_at, v1_at]
  rfl

/-- The three blocks side by side: column 0 is the constant one, columns 1..16 the linear block, columns 17..272 the
    quadratic block. Each case reads the block whose span of columns holds the column, at the column less the
    extents before it. -/
theorem v11_at (x0 : (⟨S50000x16, .f32⟩ : BufTy).Contents (Elt Ideal)) (p : Fin 50000) (col : Fin 273) :
    val_main_v11 (F := Ideal) x0 (ix2 p col) =
      if h0 : col.val < 1 then Cert.Spec.unit
      else if h1 : col.val < 17 then (x0 (ix2 p ⟨col.val - 1, by omega⟩) * Cert.Spec.tenth) * Cert.Spec.rootTwo
      else (x0 (ix2 p ⟨(col.val - 17) / 16, by omega⟩) * Cert.Spec.tenth) *
        (x0 (ix2 p ⟨(col.val - 17) % 16, by omega⟩) * Cert.Spec.tenth) := by
  have hcol : col.val < 273 := col.isLt
  unfold val_main_v11
  by_cases h0 : col.val < 1
  · rw [dif_pos h0]
    refine (concatenate_apply_piece (t := S50000x273) 1
      [⟨S50000x1, val_main_v2 (F := Ideal)⟩, ⟨S50000x16, val_main_v4 (F := Ideal) x0⟩, ⟨S50000x256, val_main_v10 (F := Ideal) x0⟩]
      concatenates_S50000x1_S50000x16_S50000x256_S50000x273_d1
      (ix2 p col) 0 (by show 0 < 3; omega) S50000x1 (val_main_v2 (F := Ideal)) rfl rfl 0 rfl (ix2 p ⟨0, by omega⟩)
      (fun b hb => by
        match b with
        | ⟨0, _⟩ => rfl
        | ⟨1, _⟩ => exact absurd rfl hb)
      (show 0 + 0 = col.val by omega)).trans ?_
    rw [val_main_v2_apply, val_main_cst_0_apply]
    rfl
  · rw [dif_neg h0]
    by_cases h1 : col.val < 17
    · rw [dif_pos h1]
      refine (concatenate_apply_piece (t := S50000x273) 1
      [⟨S50000x1, val_main_v2 (F := Ideal)⟩, ⟨S50000x16, val_main_v4 (F := Ideal) x0⟩, ⟨S50000x256, val_main_v10 (F := Ideal) x0⟩]
      concatenates_S50000x1_S50000x16_S50000x256_S50000x273_d1
        (ix2 p col) 1 (by show 1 < 3; omega) S50000x16 (val_main_v4 (F := Ideal) x0) rfl rfl 1 rfl (ix2 p ⟨col.val - 1, by omega⟩)
        (fun b hb => by
          match b with
          | ⟨0, _⟩ => rfl
          | ⟨1, _⟩ => exact absurd rfl hb)
        (show 1 + (col.val - 1) = col.val by omega)).trans ?_
      rw [v4_at, mul_comm Cert.Spec.tenth, mul_comm Cert.Spec.rootTwo]
    · rw [dif_neg h1]
      refine (concatenate_apply_piece (t := S50000x273) 1
      [⟨S50000x1, val_main_v2 (F := Ideal)⟩, ⟨S50000x16, val_main_v4 (F := Ideal) x0⟩, ⟨S50000x256, val_main_v10 (F := Ideal) x0⟩]
      concatenates_S50000x1_S50000x16_S50000x256_S50000x273_d1
        (ix2 p col) 2 (by show 2 < 3; omega) S50000x256 (val_main_v10 (F := Ideal) x0) rfl rfl 17 rfl (ix2 p ⟨col.val - 17, by omega⟩)
        (fun b hb => by
          match b with
          | ⟨0, _⟩ => rfl
          | ⟨1, _⟩ => exact absurd rfl hb)
        (show 17 + (col.val - 17) = col.val by omega)).trans ?_
      rw [v10_at, mul_comm Cert.Spec.tenth, mul_comm Cert.Spec.tenth]

/-- The reference's clipped lift is the specification's feature map. -/
theorem expand_eq (x0 : (⟨S50000x16, .f32⟩ : BufTy).Contents (Elt Ideal)) :
    val_main_v12 (F := Ideal) x0 = Cert.Spec.expand x0 := by
  funext i
  obtain ⟨p, col, rfl⟩ : ∃ (p : Fin 50000) (col : Fin 273), i = ix2 p col := ⟨i 0, i 1, eq_ix2 i⟩
  rw [val_main_v12_apply, val_main_call0_v4_apply, val_main_call0_v3_apply, val_main_cst_3_apply,
    val_main_call0_v2_apply, val_main_call0_v1_apply, val_main_call0_v0_apply, val_main_cst_2_apply, v11_at]
  rfl

/-- The reference's edge sum is the specification's, applied to the reference's lift: the same host operations in
    the same order (the source indices normalised, the source rows gathered, the rows accumulated at the
    destinations), so the two are one term and nothing is computed. -/
theorem edge_eq (x0 : (⟨S50000x16, .f32⟩ : BufTy).Contents (Elt Ideal)) (x1 x2 : (⟨S400000, .i32⟩ : BufTy).Contents (Elt Ideal)) :
    val_main_v22 (F := Ideal) x0 x1 x2 =
      Cert.Spec.edgeSum gather_S50000x273_S400000x1_S400000x273_1_0_n_n_0_1_1273 scatter_S50000x273_S400000x1_S400000x273_1_0_0_1
        Facts₀.bcast_S_S400000 Facts₀.bcast_S400000_S400000x1_0 Facts₀.bcast_S_S50000x273 (val_main_v12 (F := Ideal) x0) x1 x2 := by
  unfold val_main_v22 val_main_v21 val_main_v20 val_main_cst_5 val_main_v19 val_main_v18 val_main_v17 val_main_v16 val_main_v15
    val_main_c_4 val_main_v14 val_main_v13 val_main_c Cert.Spec.edgeSum
  rfl

/-- After the edge sum: clip, add the node's own lifted entry, clip again. -/
theorem v25_at (x0 : (⟨S50000x16, .f32⟩ : BufTy).Contents (Elt Ideal)) (x1 x2 : (⟨S400000, .i32⟩ : BufTy).Contents (Elt Ideal))
    (j : S50000x273.Idx) :
    val_main_v25 (F := Ideal) x0 x1 x2 j =
      Cert.Spec.clip (Cert.Spec.clip (val_main_v22 (F := Ideal) x0 x1 x2 j) + val_main_v12 (F := Ideal) x0 j) := by
  rw [val_main_v25_apply, val_main_call2_v4_apply, val_main_call2_v3_apply, val_main_cst_9_apply,
    val_main_call2_v2_apply, val_main_call2_v1_apply, val_main_call2_v0_apply, val_main_cst_8_apply,
    val_main_v24_apply, val_main_v23_apply, val_main_call1_v4_apply, val_main_call1_v3_apply, val_main_cst_7_apply,
    val_main_call1_v2_apply, val_main_call1_v1_apply, val_main_call1_v0_apply, val_main_cst_6_apply]
  generalize val_main_v22 (F := Ideal) x0 x1 x2 j = s
  generalize val_main_v12 (F := Ideal) x0 j = h
  rfl

/-- The reference's result is the specification's projection of the edge sum of the lift: entry (p, q) is the sum
    over the 273 coordinates k of the twice-clipped row entry (p, k) times the matrix entry (k, q), divided by four. -/
theorem result_eq (x0 : (⟨S50000x16, .f32⟩ : BufTy).Contents (Elt Ideal)) (x1 x2 : (⟨S400000, .i32⟩ : BufTy).Contents (Elt Ideal)) (x3 : (⟨S273x64, .f32⟩ : BufTy).Contents (Elt Ideal)) :
    val_main_v28 (F := Ideal) x0 x1 x2 x3 =
      Cert.Spec.project
        (Cert.Spec.edgeSum gather_S50000x273_S400000x1_S400000x273_1_0_n_n_0_1_1273 scatter_S50000x273_S400000x1_S400000x273_1_0_0_1
          Facts₀.bcast_S_S400000 Facts₀.bcast_S400000_S400000x1_0 Facts₀.bcast_S_S50000x273 (Cert.Spec.expand x0) x1 x2)
        (Cert.Spec.expand x0) x3 := by
  rw [← expand_eq x0, ← edge_eq x0 x1 x2]
  generalize hagg : val_main_v22 (F := Ideal) x0 x1 x2 = agg
  generalize hh : val_main_v12 (F := Ideal) x0 = h
  funext i
  obtain ⟨p, q, rfl⟩ : ∃ (p : Fin 50000) (q : Fin 64), i = ix2 p q := ⟨i 0, i 1, eq_ix2 i⟩
  have el : ∀ k : Fin 273, lidx_main_v26 (ix2 p q) k = ix2 p k := fun k =>
    funext fun a => by match a with | ⟨0, _⟩ => rfl | ⟨1, _⟩ => rfl
  have er : ∀ k : Fin 273, ridx_main_v26 (ix2 p q) k = ix2 k q := fun k =>
    funext fun a => by match a with | ⟨0, _⟩ => rfl | ⟨1, _⟩ => rfl
  rw [val_main_v28_apply, val_main_v27_apply, val_main_cst_10_apply, val_main_v26_apply]
  unfold Cert.Spec.project
  show Ideal.div _ Cert.Spec.four = Ideal.div _ Cert.Spec.four
  refine congrArg (fun s => Ideal.div s Cert.Spec.four) ?_
  refine Finset.sum_congr rfl fun k _ => ?_
  rw [el, er, v25_at, hagg, hh]

end Cert.ReferenceIdeal.RefValue

end
-- ==== Proof.lean ====
/-
  The kernel and its reference compute one function of the four arguments at the extended reals.

  Both programs lift each node's features to the 273 clipped coordinates of the degree-2 feature map, sum the lifted
  rows along the graph's edges with the same host operations (a gather of the source rows and an accumulating
  scatter at the destination rows), clip the sums, add the node's own lifted row, clip again, multiply by the
  projection matrix and divide by 4. The kernel does the lifting and the projection block by block of 2000 rows,
  the reference on whole arrays; at the extended reals a block of a whole-array function is the function on the
  block, the narrow-format roundings before the product are the identity, and the two products are the same sum
  over the 273 coordinates. The only law used between the two sides is the commutativity of multiplication
  (the reference multiplies the constants from the left, the kernel from the right); no input needs to be finite.
  The programs' frames are their generated runs; nothing was rewritten by the idealization.
-/
import proofs.«164930_j49065706389958_2_alg».proof.Defs
import proofs.«164930_j49065706389958_2_alg».proof.Proof.Gen.Kernel
import proofs.«164930_j49065706389958_2_alg».proof.Proof.Gen.Kernel.Frame
import proofs.«164930_j49065706389958_2_alg».proof.Proof.Gen.KernelIdeal
import proofs.«164930_j49065706389958_2_alg».proof.Proof.Gen.KernelIdeal.Frame
import proofs.«164930_j49065706389958_2_alg».proof.Proof.Gen.ReferenceIdeal
import proofs.«164930_j49065706389958_2_alg».proof.Proof.Gen.ReferenceIdeal.Read
import proofs.«164930_j49065706389958_2_alg».proof.Proof.Gen.Pre_finite_inputs
import proofs.«164930_j49065706389958_2_alg».proof.Proof.KernelBoundary
import proofs.«164930_j49065706389958_2_alg».proof.Proof.KernelValue
import proofs.«164930_j49065706389958_2_alg».proof.Proof.RefValue

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result buffer at `result` of the arguments: the kernel's by reading the last segment
    boundary, the reference's by reading its composed term; the arguments agree, and the two programs' dimension
    records are the same records. -/
theorem algebraic : Cert.algebraic_KernelIdeal_ReferenceIdeal := by
  intro m ρ m' ρ' _ hagree
  refine ⟨fun c => Cert.KernelIdeal.KernelValue.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.KernelValue.out_eq m ρ c), (h c).2⟩)
      (Cert.KernelIdeal.KernelBoundary.run_boundary (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v28_eq, Cert.ReferenceIdeal.RefValue.result_eq,
      (hagree c).1, (hagree c).2.1, (hagree c).2.2.1, (hagree c).2.2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
